-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x64 : Shape := ⟨2, ![32, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x32 .f32) (main_arg3 : FVec F S32 .f32) (main_arg4 : FVec F S32x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x64 : Shape := ⟨2, ![32, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x32 : Shape := ⟨2, ![100000, 32]⟩
abbrev S5000x256 : Shape := ⟨2, ![5000, 256]⟩
abbrev S5000x32 : Shape := ⟨2, ![5000, 32]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 120
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x32, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x32, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S_, .f32⟩
  | .hbm, ⟨68, _⟩ => ⟨S3300000, .f32⟩
  | .hbm, ⟨69, _⟩ => ⟨S_, .f32⟩
  | .hbm, ⟨70, _⟩ => ⟨S100000, .f32⟩
  | .hbm, ⟨71, _⟩ => ⟨S3300000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S3300000, .i32⟩
  | .hbm, ⟨85, _⟩ => ⟨S3300000, .i1⟩
  | .hbm, ⟨86, _⟩ => ⟨S_, .i32⟩
  | .hbm, ⟨87, _⟩ => ⟨S3300000, .i32⟩
  | .hbm, ⟨88, _⟩ => ⟨S3300000, .i32⟩
  | .hbm, ⟨89, _⟩ => ⟨S3300000, .i32⟩
  | .hbm, ⟨90, _⟩ => ⟨S3300000x1, .i32⟩
  | .hbm, ⟨91, _⟩ => ⟨S3300000, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000, .f32⟩
  | .hbm, ⟨101, _⟩ => ⟨S3300000, .f32⟩
  | .hbm, ⟨102, _⟩ => ⟨S3300000x1, .f32⟩
  | .hbm, ⟨103, _⟩ => ⟨S_, .i32⟩
  | .hbm, ⟨104, _⟩ => ⟨S3300000, .i32⟩
  | .hbm, ⟨105, _⟩ => ⟨S3300000, .i1⟩
  | .hbm, ⟨106, _⟩ => ⟨S_, .i32⟩
  | .hbm, ⟨107, _⟩ => ⟨S3300000, .i32⟩
  | .hbm, ⟨108, _⟩ => ⟨S3300000, .i32⟩
  | .hbm, ⟨109, _⟩ => ⟨S3300000, .i32⟩
  | .hbm, ⟨110, _⟩ => ⟨S3300000x1, .i32⟩
  | .hbm, ⟨111, _⟩ => ⟨S3300000x32, .f32⟩
  | .hbm, ⟨112, _⟩ => ⟨S3300000x32, .f32⟩
  | .hbm, ⟨113, _⟩ => ⟨S3300000x32, .f32⟩
  | .hbm, ⟨114, _⟩ => ⟨S_, .f32⟩
  | .hbm, ⟨115, _⟩ => ⟨S100000x32, .f32⟩
  | .hbm, ⟨116, _⟩ => ⟨S3300000x1, .i32⟩
  | .hbm, ⟨117, _⟩ => ⟨S100000x32, .f32⟩
  | .hbm, ⟨118, _⟩ => ⟨S1x64, .f32⟩
  | .hbm, ⟨119, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S32x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_call1_v0 : Ref sig .tc := ⟨.hbm, 80, rfl⟩
abbrev main_call1_v1 : Ref sig .tc := ⟨.hbm, 81, rfl⟩
abbrev main_v55 : Ref sig .tc := ⟨.hbm, 82, rfl⟩
abbrev main_c_15 : Ref sig .tc := ⟨.hbm, 83, rfl⟩
abbrev main_v56 : Ref sig .tc := ⟨.hbm, 84, rfl⟩
abbrev main_v57 : Ref sig .tc := ⟨.hbm, 85, rfl⟩
abbrev main_c_16 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_17 : Ref sig .tc := ⟨.hbm, 92, rfl⟩
abbrev main_v63 : Ref sig .tc := ⟨.hbm, 93, rfl⟩
abbrev main_v64 : Ref sig .tc := ⟨.hbm, 94, rfl⟩
abbrev main_c_18 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_19 : Ref sig .tc := ⟨.hbm, 103, rfl⟩
abbrev main_v72 : Ref sig .tc := ⟨.hbm, 104, rfl⟩
abbrev main_v73 : Ref sig .tc := ⟨.hbm, 105, rfl⟩
abbrev main_c_20 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_21 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S64_S1x64 : S64.ShapeCasts S1x64
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S5000x256_S256x32_S5000x32_1_0_0_1_n_n_wf : DotDims.WF S5000x256 S256x32 S5000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v83) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x64 : Shape := ⟨2, ![32, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x32 : Shape := ⟨2, ![100000, 32]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x64 : Shape := ⟨2, ![100000, 64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x32, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x32, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S_, .f32⟩
  | .hbm, ⟨72, _⟩ => ⟨S3300000, .f32⟩
  | .hbm, ⟨73, _⟩ => ⟨S_, .f32⟩
  | .hbm, ⟨74, _⟩ => ⟨S100000, .f32⟩
  | .hbm, ⟨75, _⟩ => ⟨S3300000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .i1⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S3300000x1, .f32⟩
  | .hbm, ⟨107, _⟩ => ⟨S_, .i32⟩
  | .hbm, ⟨108, _⟩ => ⟨S3300000, .i32⟩
  | .hbm, ⟨109, _⟩ => ⟨S3300000, .i1⟩
  | .hbm, ⟨110, _⟩ => ⟨S_, .i32⟩
  | .hbm, ⟨111, _⟩ => ⟨S3300000, .i32⟩
  | .hbm, ⟨112, _⟩ => ⟨S3300000, .i32⟩
  | .hbm, ⟨113, _⟩ => ⟨S3300000, .i32⟩
  | .hbm, ⟨114, _⟩ => ⟨S3300000x1, .i32⟩
  | .hbm, ⟨115, _⟩ => ⟨S3300000x32, .f32⟩
  | .hbm, ⟨116, _⟩ => ⟨S3300000x32, .f32⟩
  | .hbm, ⟨117, _⟩ => ⟨S3300000x32, .f32⟩
  | .hbm, ⟨118, _⟩ => ⟨S_, .f32⟩
  | .hbm, ⟨119, _⟩ => ⟨S100000x32, .f32⟩
  | .hbm, ⟨120, _⟩ => ⟨S3300000x1, .i32⟩
  | .hbm, ⟨121, _⟩ => ⟨S100000x32, .f32⟩
  | .hbm, ⟨122, _⟩ => ⟨S100000x64, .f32⟩
  | .hbm, ⟨123, _⟩ => ⟨S1x64, .f32⟩
  | .hbm, ⟨124, _⟩ => ⟨S100000x64, .f32⟩
  | .hbm, ⟨125, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_call2_v0 : Ref sig .tc := ⟨.hbm, 84, rfl⟩
abbrev main_call2_v1 : Ref sig .tc := ⟨.hbm, 85, rfl⟩
abbrev main_v57 : Ref sig .tc := ⟨.hbm, 86, rfl⟩
abbrev main_c_15 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_17 : Ref sig .tc := ⟨.hbm, 96, rfl⟩
abbrev main_v65 : Ref sig .tc := ⟨.hbm, 97, rfl⟩
abbrev main_v66 : Ref sig .tc := ⟨.hbm, 98, rfl⟩
abbrev main_c_18 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_c_20 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_21 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x32_S100000x32_1_0_0_1_n_n_wf : DotDims.WF S100000x256 S256x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x64_S100000x64_1_0_0_1_n_n_wf : DotDims.WF S100000x32 S32x64 S100000x64 [1] [0] [0] [1] [] []

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf

class Facts : Prop extends Facts₀ where

variable [Facts]
-- ==== Proof.RefValue.lean ====
/-
  The reference program's result as its last stage. The program is one line of 120 host operations; its run leaves every
  buffer at the fold of the operations over the launch contents. The first seven operations build the two index arrays
  `row` and `col`; the other 113 never write them, the arguments, or each other's operands out of order, so the fold at
  the result buffer is the composed term of the operations, which is the stage `val_main_v89` of the six arguments.
-/
import proofs.«123566_j33328946217826_1_alg».proof.Proof.RefRunP
import proofs.«123566_j33328946217826_1_alg».proof.Proof.RefReadP
import Idealize.ShloMosaic.Lib.Pipeline.Frame

set_option maxRecDepth 16384

noncomputable section

namespace Cert.ReferenceIdeal.Whole

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- `row` after the first seven operations: the edge list's first row followed by the self-loops. -/
theorem pre_row (L : Valuation τ sig (Elt F)) :
    after (List.take 7 (Cert.ReferenceIdeal.ValueP.ops (F := F))) L (Proc.devRef .tc main_v3)
      = val_main_v3 (F := F) (L (Proc.devRef .tc main_arg1)) := by
  simp only [Cert.ReferenceIdeal.ValueP.ops, List.take_succ_cons, List.take_zero]
  after_results_simp
  refine (congrArg₂ (fun a b => concatenate S3300000 0 [⟨S3200000, a⟩, ⟨S100000, b⟩] Cert.ReferenceIdeal.Gen.concatenates_S3200000_S100000_S3300000_d0)
    (?_ : _ = val_main_v2 (F := F) (L (Proc.devRef .tc main_arg1)))
    (?_ : _ = val_main_v0 (F := F))).trans ?_
  · after_results_simp; rfl
  · after_results_simp; rfl
  · rfl

/-- `col` after the first seven operations: the edge list's second row followed by the self-loops. -/
theorem pre_col (L : Valuation τ sig (Elt F)) :
    after (List.take 7 (Cert.ReferenceIdeal.ValueP.ops (F := F))) L (Proc.devRef .tc main_v6)
      = val_main_v6 (F := F) (L (Proc.devRef .tc main_arg1)) := by
  simp only [Cert.ReferenceIdeal.ValueP.ops, List.take_succ_cons, List.take_zero]
  after_results_simp
  refine (congrArg₂ (fun a b => concatenate S3300000 0 [⟨S3200000, a⟩, ⟨S100000, b⟩] Cert.ReferenceIdeal.Gen.concatenates_S3200000_S100000_S3300000_d0)
    (?_ : _ = val_main_v5 (F := F) (L (Proc.devRef .tc main_arg1)))
    (?_ : _ = val_main_v0 (F := F))).trans ?_
  · after_results_simp; rfl
  · after_results_simp; rfl
  · rfl

/-- The first seven operations write no argument. -/
theorem pre_arg (L : Valuation τ sig (Elt F)) :
    after (List.take 7 (Cert.ReferenceIdeal.ValueP.ops (F := F))) L (Proc.devRef .tc main_arg0) = L (Proc.devRef .tc main_arg0)
    ∧ after (List.take 7 (Cert.ReferenceIdeal.ValueP.ops (F := F))) L (Proc.devRef .tc main_arg2) = L (Proc.devRef .tc main_arg2)
    ∧ after (List.take 7 (Cert.ReferenceIdeal.ValueP.ops (F := F))) L (Proc.devRef .tc main_arg3) = L (Proc.devRef .tc main_arg3)
    ∧ after (List.take 7 (Cert.ReferenceIdeal.ValueP.ops (F := F))) L (Proc.devRef .tc main_arg4) = L (Proc.devRef .tc main_arg4)
    ∧ after (List.take 7 (Cert.ReferenceIdeal.ValueP.ops (F := F))) L (Proc.devRef .tc main_arg5) = L (Proc.devRef .tc main_arg5) := by
  simp only [Cert.ReferenceIdeal.ValueP.ops, List.take_succ_cons, List.take_zero]
  refine ⟨?_, ?_, ?_, ?_, ?_⟩ <;> after_results_simp

set_option maxHeartbeats 40000000 in
/-- The other 113 operations, from any contents that have `row`, `col` and five arguments at given arrays: the result
    buffer ends at the last stage of those arrays. -/
theorem rest_value (L1 : Valuation τ sig (Elt F))
    (x0 : (⟨S100000x256, .f32⟩ : BufTy).Contents (Elt F)) (x1 : (⟨S2x3200000, .i32⟩ : BufTy).Contents (Elt F))
    (x2 : (⟨S256x32, .f32⟩ : BufTy).Contents (Elt F)) (x3 : (⟨S32, .f32⟩ : BufTy).Contents (Elt F))
    (x4 : (⟨S32x64, .f32⟩ : BufTy).Contents (Elt F)) (x5 : (⟨S64, .f32⟩ : BufTy).Contents (Elt F))
    (hrow : L1 (Proc.devRef .tc main_v3) = val_main_v3 (F := F) x1) (hcol : L1 (Proc.devRef .tc main_v6) = val_main_v6 (F := F) x1)
    (h0 : L1 (Proc.devRef .tc main_arg0) = x0) (h2 : L1 (Proc.devRef .tc main_arg2) = x2) (h3 : L1 (Proc.devRef .tc main_arg3) = x3)
    (h4 : L1 (Proc.devRef .tc main_arg4) = x4) (h5 : L1 (Proc.devRef .tc main_arg5) = x5) :
    after (List.drop 7 (Cert.ReferenceIdeal.ValueP.ops (F := F))) L1 (Proc.devRef .tc main_v89)
      = val_main_v89 (F := F) x0 x1 x2 x3 x4 x5 := by
  simp only [Cert.ReferenceIdeal.ValueP.ops, List.drop_succ_cons, List.drop_zero]
  after_results_simp
  rw [hrow, hcol, h0, h2, h3, h4, h5]
  rfl

/-- The fold of all 120 operations at the result buffer is the last stage of the six arguments. -/
theorem value (L : Valuation τ sig (Elt F)) :
    after (Cert.ReferenceIdeal.ValueP.ops (F := F)) L (Proc.devRef .tc main_v89)
      = val_main_v89 (F := F) (L (Proc.devRef .tc main_arg0)) (L (Proc.devRef .tc main_arg1)) (L (Proc.devRef .tc main_arg2))
          (L (Proc.devRef .tc main_arg3)) (L (Proc.devRef .tc main_arg4)) (L (Proc.devRef .tc main_arg5)) := by
  obtain ⟨a0, a2, a3, a4, a5⟩ := pre_arg L
  have h := rest_value (after (List.take 7 (Cert.ReferenceIdeal.ValueP.ops (F := F))) L) _ _ _ _ _ _ (pre_row L) (pre_col L) a0 a2 a3 a4 a5
  rw [← StableHlo.after_append, List.take_append_drop] at h
  exact h

set_option maxHeartbeats 40000000 in
/-- No operation writes an argument array. -/
theorem args_kept (L : Valuation τ sig (Elt F)) :
    after (Cert.ReferenceIdeal.ValueP.ops (F := F)) L (Proc.devRef .tc main_arg0) = L (Proc.devRef .tc main_arg0)
    ∧ after (Cert.ReferenceIdeal.ValueP.ops (F := F)) L (Proc.devRef .tc main_arg1) = L (Proc.devRef .tc main_arg1)
    ∧ after (Cert.ReferenceIdeal.ValueP.ops (F := F)) L (Proc.devRef .tc main_arg2) = L (Proc.devRef .tc main_arg2)
    ∧ after (Cert.ReferenceIdeal.ValueP.ops (F := F)) L (Proc.devRef .tc main_arg3) = L (Proc.devRef .tc main_arg3)
    ∧ after (Cert.ReferenceIdeal.ValueP.ops (F := F)) L (Proc.devRef .tc main_arg4) = L (Proc.devRef .tc main_arg4)
    ∧ after (Cert.ReferenceIdeal.ValueP.ops (F := F)) L (Proc.devRef .tc main_arg5) = L (Proc.devRef .tc main_arg5) := by
  refine ⟨?_, ?_, ?_, ?_, ?_, ?_⟩ <;> after_results_simp

/-- Every weakly fair execution of the reference program terminates, nothing faulting, with its result array at the last
    stage of the six arguments and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89)
        = val_main_v89 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨k0, k1, k2, k3, k4, k5⟩ := args_kept (F := F) (launchContents m c)
      exact ⟨(h c main_v89).trans (value (launchContents m c)), (h c main_arg0).trans k0, (h c main_arg1).trans k1,
        (h c main_arg2).trans k2, (h c main_arg3).trans k3, (h c main_arg4).trans k4, (h c main_arg5).trans k5⟩)
    (Cert.ReferenceIdeal.ValueP.run m ρ)

end Cert.ReferenceIdeal.Whole

end
-- ==== Proof.KernelRun.lean ====
/-
  The run of the idealized kernel program with its RESULT named. The program is ten segments: stretches of host
  operations and three regions, each region's arrays left at what its grid points wrote back. The frame of the program
  (the generated `Gen.frame`) already carries, through all ten segments, the contents of every buffer at the last
  boundary (`Gen.W10`); its post keeps only the six argument arrays. Here the same chain of segments is posted with one
  more buffer read off the last boundary: the result array, at `Gen.W10` of its reference. What that is as a function of
  the arguments is the business of the modules that import this one.
-/
import proofs.«123566_j33328946217826_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and the six argument arrays as launched. -/
theorem run_result : θ_run defs (onTc (τ := τ) (main (F := F))) ⟨m, fun _ => 0, ρ⟩ (fun r => ∀ c : Dev nD,
      r.2.mem ((c.tc : Thread nD τ).loc main_v85) = W10 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v85 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Whole

end
-- ==== Proof.Network.lean ====
/-
  The network both programs compute, layer by layer, as functions of whole arrays over the extended reals.

  With `row`, `col` the edge list extended by one self-loop per node, `deg` the number of edges into a node and
  `w(e) = deg(row e)^(-1/2) · deg(col e)^(-1/2)` (zero where a degree is zero), one PROPAGATE step sends a
  [100000, 32] array `h` to the array whose row `i` is the sum over the edges `e` with `col e = i` of `w(e) · h(row e)`.
  Everything in that step except `h` depends on the edge list alone, so here it is a function `propagate₁ h x1` (and
  `propagate₂`, the same step spelt with the second layer's stages) of `h` and the edge array, built from the stages of the
  reference program; nothing below ever opens it.

  The network is  x ↦ (propagate₂ (relu (propagate₁ (x · W1) + b1)) · W2) + b2.  The three dense pieces are stated over
  a GENERIC bias row of shape [1, n], so that they can be met both by a reshaped bias vector and by a broadcast one:
    `biasRelu a y`   (i, j) ↦ max (a(i, j) + y(0, j)) 0
    `projBias a w y` (i, j) ↦ (Σ_k a(i, k) · w(k, j)) + y(0, j)
  and the first product is the reference's own stage. Each is read at an index below; the last lemmas say that the
  reference's stages are these functions of one another.
-/
import proofs.«123566_j33328946217826_1_alg».proof.Proof.RefReadP

set_option maxRecDepth 16384

noncomputable section

namespace Cert.Network

open Cert.ReferenceIdeal Cert.ReferenceIdeal.ReadP Idealize.ShloMosaic Idealize.ShloMosaic.TcCoe Idealize.SL.Sem

variable {F : FTy → Type} [FloatOps F]

/-- One propagate step over the first layer's stages: gather the rows of `h` along the edges, scale each by its edge
    weight, and add them up into the rows the edges point to. -/
def propagate₁ (h : (⟨S100000x32, .f32⟩ : BufTy).Contents (Elt F)) (x1 : (⟨S2x3200000, .i32⟩ : BufTy).Contents (Elt F)) :
    (⟨S100000x32, .f32⟩ : BufTy).Contents (Elt F) :=
  Host.scatterAdd scatter_S100000x32_S3300000x1_S3300000x32_1_0_0_1 (val_main_v42 (F := F)) (val_main_v43 (F := F) x1)
    (mulf (val_main_v40 (F := F) x1) (Host.gather gather_S100000x32_S3300000x1_S3300000x32_1_0_n_n_0_1_132 h (val_main_v38 (F := F) x1)))

/-- The same step over the second layer's stages. -/
def propagate₂ (h : (⟨S100000x32, .f32⟩ : BufTy).Contents (Elt F)) (x1 : (⟨S2x3200000, .i32⟩ : BufTy).Contents (Elt F)) :
    (⟨S100000x32, .f32⟩ : BufTy).Contents (Elt F) :=
  Host.scatterAdd scatter_S100000x32_S3300000x1_S3300000x32_1_0_0_1 (val_main_v83 (F := F)) (val_main_v84 (F := F) x1)
    (mulf (val_main_v81 (F := F) x1) (Host.gather gather_S100000x32_S3300000x1_S3300000x32_1_0_n_n_0_1_132 h (val_main_v79 (F := F) x1)))

/-- Add a bias row to every row, then clamp at zero. -/
def biasRelu (a : (⟨S100000x32, .f32⟩ : BufTy).Contents (Elt F)) (y : (⟨S1x32, .f32⟩ : BufTy).Contents (Elt F)) :
    (⟨S100000x32, .f32⟩ : BufTy).Contents (Elt F) :=
  maximumf (addf a (broadcastInDim S100000x32 ![0, 1] Cert.ReferenceIdeal.Gen.bcast_S1x32_S100000x32_0_1 y)) (val_main_call1_v0 (F := F))

/-- Multiply by a [32, 64] matrix, then add a bias row to every row. -/
def projBias (a : (⟨S100000x32, .f32⟩ : BufTy).Contents (Elt F)) (w : (⟨S32x64, .f32⟩ : BufTy).Contents (Elt F))
    (y : (⟨S1x64, .f32⟩ : BufTy).Contents (Elt F)) : (⟨S100000x64, .f32⟩ : BufTy).Contents (Elt F) :=
  addf (Host.dotGeneral dot_S100000x32_S32x64_S100000x64_1_0_0_1_n_n none a w)
    (broadcastInDim S100000x64 ![0, 1] Cert.ReferenceIdeal.Gen.bcast_S1x64_S100000x64_0_1 y)

/-! ## The reference's stages are these functions of one another -/

theorem stage_v44 (x0 : (⟨S100000x256, .f32⟩ : BufTy).Contents (Elt F)) (x1 : (⟨S2x3200000, .i32⟩ : BufTy).Contents (Elt F))
    (x2 : (⟨S256x32, .f32⟩ : BufTy).Contents (Elt F)) :
    val_main_v44 (F := F) x0 x1 x2 = propagate₁ (val_main_v7 (F := F) x0 x2) x1 := rfl

theorem stage_v48 (x0 : (⟨S100000x256, .f32⟩ : BufTy).Contents (Elt F)) (x1 : (⟨S2x3200000, .i32⟩ : BufTy).Contents (Elt F))
    (x2 : (⟨S256x32, .f32⟩ : BufTy).Contents (Elt F)) (x3 : (⟨S32, .f32⟩ : BufTy).Contents (Elt F)) :
    val_main_v48 (F := F) x0 x1 x2 x3 = biasRelu (val_main_v44 (F := F) x0 x1 x2) (val_main_v45 (F := F) x3) := rfl

theorem stage_v85 (x0 : (⟨S100000x256, .f32⟩ : BufTy).Contents (Elt F)) (x1 : (⟨S2x3200000, .i32⟩ : BufTy).Contents (Elt F))
    (x2 : (⟨S256x32, .f32⟩ : BufTy).Contents (Elt F)) (x3 : (⟨S32, .f32⟩ : BufTy).Contents (Elt F)) :
    val_main_v85 (F := F) x0 x1 x2 x3 = propagate₂ (val_main_v48 (F := F) x0 x1 x2 x3) x1 := rfl

theorem stage_v89 (x0 : (⟨S100000x256, .f32⟩ : BufTy).Contents (Elt F)) (x1 : (⟨S2x3200000, .i32⟩ : BufTy).Contents (Elt F))
    (x2 : (⟨S256x32, .f32⟩ : BufTy).Contents (Elt F)) (x3 : (⟨S32, .f32⟩ : BufTy).Contents (Elt F))
    (x4 : (⟨S32x64, .f32⟩ : BufTy).Contents (Elt F)) (x5 : (⟨S64, .f32⟩ : BufTy).Contents (Elt F)) :
    val_main_v89 (F := F) x0 x1 x2 x3 x4 x5 = projBias (val_main_v85 (F := F) x0 x1 x2 x3) x4 (val_main_v87 (F := F) x5) := rfl

/-! ## The dense pieces at an index, on the extended reals -/

/-- Bias and clamp at an entry. -/
theorem biasRelu_apply (a : (⟨S100000x32, .f32⟩ : BufTy).Contents (Elt Ideal)) (y : (⟨S1x32, .f32⟩ : BufTy).Contents (Elt Ideal))
    (i : S100000x32.Idx) :
    biasRelu (F := Ideal) a y i = max (a i + y (idx_main_v46 i)) (Ideal.ofBits .f32 0x00000000#32) := by
  show max (a i + broadcastInDim S100000x32 ![0, 1] Cert.ReferenceIdeal.Gen.bcast_S1x32_S100000x32_0_1 y i) (val_main_call1_v0 (F := Ideal) i) = _
  rw [broadcastInDim_apply _ Cert.ReferenceIdeal.Gen.bcast_S1x32_S100000x32_0_1 y i (idx_main_v46 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)]),
    val_main_call1_v0_apply, val_main_call1_cst_apply]
  rfl

/-- The projection at an entry: a sum over the 32 contracted positions, plus the bias. -/
theorem projBias_apply (a : (⟨S100000x32, .f32⟩ : BufTy).Contents (Elt Ideal)) (w : (⟨S32x64, .f32⟩ : BufTy).Contents (Elt Ideal))
    (y : (⟨S1x64, .f32⟩ : BufTy).Contents (Elt Ideal)) (i : S100000x64.Idx) :
    projBias (F := Ideal) a w y i = (∑ k : Fin 32, a (lidx_main_v86 i k) * w (ridx_main_v86 i k)) + y (idx_main_v88 i) := by
  show Host.dotGeneral (F := Ideal) dot_S100000x32_S32x64_S100000x64_1_0_0_1_n_n none a w i
    + broadcastInDim S100000x64 ![0, 1] Cert.ReferenceIdeal.Gen.bcast_S1x64_S100000x64_0_1 y i = _
  rw [broadcastInDim_apply _ Cert.ReferenceIdeal.Gen.bcast_S1x64_S100000x64_0_1 y i (idx_main_v88 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  refine congrArg (· + y (idx_main_v88 i)) ?_
  simp only [Host.dotGeneral]
  rw [Ideal.dotGeneral_apply, ← Equiv.sum_comp (ValueIdx.contrEquiv1 dot_S100000x32_S32x64_S100000x64_1_0_0_1_n_n 32 rfl rfl).symm]
  refine Finset.sum_congr rfl fun k _ => ?_
  have hk := ValueIdx.contrEquiv1_symm_val dot_S100000x32_S32x64_S100000x64_1_0_0_1_n_n 32 rfl rfl k
  have el : dot_S100000x32_S32x64_S100000x64_1_0_0_1_n_n.lhsIdx i ((ValueIdx.contrEquiv1 dot_S100000x32_S32x64_S100000x64_1_0_0_1_n_n 32 rfl rfl).symm k) = lidx_main_v86 i k := funext fun a => Fin.ext (by
    match a with
    | ⟨0, _⟩ => exact lhs_main_v86_0 _ _
    | ⟨1, _⟩ => exact (lhs_main_v86_1 _ _).trans hk)
  have er : dot_S100000x32_S32x64_S100000x64_1_0_0_1_n_n.rhsIdx i ((ValueIdx.contrEquiv1 dot_S100000x32_S32x64_S100000x64_1_0_0_1_n_n 32 rfl rfl).symm k) = ridx_main_v86 i k := funext fun a => Fin.ext (by
    match a with
    | ⟨0, _⟩ => exact (rhs_main_v86_0 _ _).trans hk
    | ⟨1, _⟩ => exact rhs_main_v86_1 _ _)
  rw [el, er]

end Cert.Network

end
-- ==== Proof.KernelHost.lean ====
/-
  The contents of the idealized kernel program's buffers at the boundaries between its host stretches and its regions,
  as functions of the argument arrays. The first stretch builds the two index arrays `row` and `col` (the edge list's two
  rows, each followed by 0 … 99999, the self-loops); no later operation writes them, so every later boundary finds them
  as the first stretch left them. They are the same two arrays the reference program builds (its stages `val_main_v3`,
  `val_main_v6`).
-/
import proofs.«123566_j33328946217826_1_alg».proof.Proof.Gen.KernelIdeal.Frame
import proofs.«123566_j33328946217826_1_alg».proof.Proof.Network
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first stretch -/

/-- `row`: the edge list's first row followed by the self-loops. -/
theorem W1_row (c : Dev nD) :
    W1 m ρ c (Proc.devRef .tc main_v3) = Cert.ReferenceIdeal.ReadP.val_main_v3 (F := F) (m ((c : Thread nD τ).loc main_arg1)) := by
  after_results_simp
  refine (congrArg₂ (fun a b => concatenate S3300000 0 [⟨S3200000, a⟩, ⟨S100000, b⟩] Cert.KernelIdeal.Gen.concatenates_S3200000_S100000_S3300000_d0)
    (?_ : _ = Cert.ReferenceIdeal.ReadP.val_main_v2 (F := F) (m ((c : Thread nD τ).loc main_arg1)))
    (?_ : _ = Cert.ReferenceIdeal.ReadP.val_main_v0 (F := F))).trans ?_
  · after_results_simp; rfl
  · after_results_simp; rfl
  · rfl

/-- `col`: the edge list's second row followed by the self-loops. -/
theorem W1_col (c : Dev nD) :
    W1 m ρ c (Proc.devRef .tc main_v6) = Cert.ReferenceIdeal.ReadP.val_main_v6 (F := F) (m ((c : Thread nD τ).loc main_arg1)) := by
  after_results_simp
  refine (congrArg₂ (fun a b => concatenate S3300000 0 [⟨S3200000, a⟩, ⟨S100000, b⟩] Cert.KernelIdeal.Gen.concatenates_S3200000_S100000_S3300000_d0)
    (?_ : _ = Cert.ReferenceIdeal.ReadP.val_main_v5 (F := F) (m ((c : Thread nD τ).loc main_arg1)))
    (?_ : _ = Cert.ReferenceIdeal.ReadP.val_main_v0 (F := F))).trans ?_
  · after_results_simp; rfl
  · after_results_simp; rfl
  · rfl

/-- The first stretch writes no argument. -/
theorem W1_arg0 (c : Dev nD) : W1 m ρ c (Proc.devRef .tc main_arg0) = m ((c : Thread nD τ).loc main_arg0) := by
  after_results_simp
theorem W1_arg2 (c : Dev nD) : W1 m ρ c (Proc.devRef .tc main_arg2) = m ((c : Thread nD τ).loc main_arg2) := by
  after_results_simp
theorem W1_arg3 (c : Dev nD) : W1 m ρ c (Proc.devRef .tc main_arg3) = m ((c : Thread nD τ).loc main_arg3) := by
  after_results_simp
theorem W1_arg5 (c : Dev nD) : W1 m ρ c (Proc.devRef .tc main_arg5) = m ((c : Thread nD τ).loc main_arg5) := by
  after_results_simp

/-! ## After the first region: it writes its result array only -/

theorem W2_row (c : Dev nD) :
    W2 m ρ c (Proc.devRef .tc main_v3) = Cert.ReferenceIdeal.ReadP.val_main_v3 (F := F) (m ((c : Thread nD τ).loc main_arg1)) :=
  (W2_of_ne m ρ c main_v3 (by decide)).trans (W1_row m ρ c)
theorem W2_col (c : Dev nD) :
    W2 m ρ c (Proc.devRef .tc main_v6) = Cert.ReferenceIdeal.ReadP.val_main_v6 (F := F) (m ((c : Thread nD τ).loc main_arg1)) :=
  (W2_of_ne m ρ c main_v6 (by decide)).trans (W1_col m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## Before the second region: one propagate step of the first region's result, and the first bias as a row -/

/-- Between the first and the second region nothing writes `row`, `col` or the last bias. -/
theorem W5_row (c : Dev nD) :
    W5 m ρ c (Proc.devRef .tc main_v3) = Cert.ReferenceIdeal.ReadP.val_main_v3 (F := F) (m ((c : Thread nD τ).loc main_arg1)) := by
  after_results_simp; exact W2_row m ρ c
theorem W5_col (c : Dev nD) :
    W5 m ρ c (Proc.devRef .tc main_v6) = Cert.ReferenceIdeal.ReadP.val_main_v6 (F := F) (m ((c : Thread nD τ).loc main_arg1)) := by
  after_results_simp; exact W2_col m ρ c
theorem W5_arg5 (c : Dev nD) : W5 m ρ c (Proc.devRef .tc main_arg5) = m ((c : Thread nD τ).loc main_arg5) := by
  after_results_simp; exact W2_arg5 m ρ c

set_option maxHeartbeats 4000000 in
/-- What the second region finds in its first window's array: one propagate step of the first region's result. -/
theorem W5_agg (c : Dev nD) :
    W5 m ρ c (Proc.devRef .tc main_v44)
      = Cert.Network.propagate₁ (F := F) (W2 m ρ c (Proc.devRef .tc main_v7)) (m ((c : Thread nD τ).loc main_arg1)) := by
  after_results_simp
  rw [W2_row m ρ c, W2_col m ρ c]
  rfl

/-- What it finds in its second window's array: the first bias vector as a [1, 32] row. -/
theorem W5_bias (c : Dev nD) :
    W5 m ρ c (Proc.devRef .tc main_v45)
      = shapeCast S1x32 (m ((c : Thread nD τ).loc main_arg3)) Cert.KernelIdeal.Gen.shapeCasts_S32_S1x32 := by
  after_results_simp
  rw [W2_arg3 m ρ c]
  rfl

/-! ## After the second region: it writes its result array only -/

theorem W6_row (c : Dev nD) :
    W6 m ρ c (Proc.devRef .tc main_v3) = Cert.ReferenceIdeal.ReadP.val_main_v3 (F := F) (m ((c : Thread nD τ).loc main_arg1)) :=
  (W6_of_ne m ρ c main_v3 (by decide)).trans (W5_row m ρ c)
theorem W6_col (c : Dev nD) :
    W6 m ρ c (Proc.devRef .tc main_v6) = Cert.ReferenceIdeal.ReadP.val_main_v6 (F := F) (m ((c : Thread nD τ).loc main_arg1)) :=
  (W6_of_ne m ρ c main_v6 (by decide)).trans (W5_col m ρ c)
theorem W6_arg5 (c : Dev nD) : W6 m ρ c (Proc.devRef .tc main_arg5) = m ((c : Thread nD τ).loc main_arg5) :=
  (W6_of_ne m ρ c main_arg5 (by decide)).trans (W5_arg5 m ρ c)

/-! ## Before the third region: one propagate step of the second region's result, and the last bias as a row -/

set_option maxHeartbeats 4000000 in
/-- What the third region finds in its first window's array: one propagate step of the second region's result. -/
theorem W9_agg (c : Dev nD) :
    W9 m ρ c (Proc.devRef .tc main_v83)
      = Cert.Network.propagate₂ (F := F) (W6 m ρ c (Proc.devRef .tc main_v46)) (m ((c : Thread nD τ).loc main_arg1)) := by
  after_results_simp
  rw [W6_row m ρ c, W6_col m ρ c]
  rfl

/-- What it finds in its third window's array: the last bias vector as a [1, 64] row. -/
theorem W9_bias (c : Dev nD) :
    W9 m ρ c (Proc.devRef .tc main_v84)
      = shapeCast S1x64 (m ((c : Thread nD τ).loc main_arg5)) Cert.KernelIdeal.Gen.shapeCasts_S64_S1x64 := by
  after_results_simp
  rw [W6_arg5 m ρ c]
  rfl

/-- The matrix the third region multiplies by is the fifth argument: the region stages it and never writes it back, and
    the program's last boundary has it as launched. -/
theorem W9_arg4 (c : Dev nD) : W9 m ρ c (Proc.devRef .tc main_arg4) = m ((c : Thread nD τ).loc main_arg4) :=
  (((W10_arr m ρ c 1).trans (((dat2 (V9 m ρ) c).arrAt_in 1 rfl _).trans (A_eq2 (V9 m ρ) c 1))).symm).trans (W10_main_arg4 m ρ c)

end Cert.KernelIdeal.Whole

end
-- ==== Proof.Region0.lean ====
/-
  The first region as ONE function of the arrays it finds. The region multiplies a [100000, 256] array by a [256, 32]
  array in twenty row blocks of 5000: at grid point `t` the body loads rows 5000·t … 5000·t + 4999 of the left operand
  and the whole right operand, and stores their product (the two roundings to bf16 on the way in are the identity
  on the extended reals) as rows 5000·t … 5000·t + 4999 of the result. An entry of a product of extended-real
  matrices depends on one row of the left operand and one column of the right one only, so every block of the
  result is the corresponding block of the WHOLE product, the sum over the 256 contracted positions of
  left(row, k) · right(k, column); the twenty blocks tile the 100000 rows, and the result array is the whole product.
-/
import proofs.«123566_j33328946217826_1_alg».proof.Proof.Gen.KernelIdeal.Frame
import proofs.«123566_j33328946217826_1_alg».proof.Proof.RefReadP
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

/-- The contraction of a [5000, 256] block with the [256, 32] matrix. -/
abbrev D0 : DotDims S5000x256 S256x32 S5000x32 := dot_S5000x256_S256x32_S5000x32_1_0_0_1_n_n

theorem lhs0_0 (i : S5000x32.Idx) (q : D0.contr.Idx) : (D0.lhsIdx i q 0).val = (i 0).val := by
  unfold DotDims.lhsIdx
  rw [dif_neg (show ¬(0 : Fin S5000x256.rank) ∈ D0.lhsBatch by decide), dif_pos (show (0 : Fin S5000x256.rank) ∈ D0.lhsNonContracting by decide)]
  rfl
theorem lhs0_1 (i : S5000x32.Idx) (q : D0.contr.Idx) : (D0.lhsIdx i q 1).val = (q ⟨0, by decide⟩).val :=
  D0.lhsIdx_val_of_single rfl i q
theorem rhs0_0 (i : S5000x32.Idx) (q : D0.contr.Idx) : (D0.rhsIdx i q 0).val = (q ⟨0, by decide⟩).val :=
  D0.rhsIdx_val_of_single rfl i q
theorem rhs0_1 (i : S5000x32.Idx) (q : D0.contr.Idx) : (D0.rhsIdx i q 1).val = (i 1).val := by
  unfold DotDims.rhsIdx
  rw [dif_neg (show ¬(1 : Fin S256x32.rank) ∈ D0.rhsBatch by decide), dif_pos (show (1 : Fin S256x32.rank) ∈ D0.rhsNonContracting by decide)]
  rfl

/-- Row `j 0`, position `k` of the left block. -/
abbrev bl0 (j : S5000x32.Idx) (k : Fin 256) : S5000x256.Idx := fun a => match a with
  | ⟨0, _⟩ => ⟨(j 0).val, (j 0).isLt⟩
  | ⟨1, _⟩ => ⟨k.val, k.isLt⟩
/-- Position `k`, column `j 1` of the right matrix. -/
abbrev br0 (j : S5000x32.Idx) (k : Fin 256) : S256x32.Idx := fun a => match a with
  | ⟨0, _⟩ => ⟨k.val, k.isLt⟩
  | ⟨1, _⟩ => ⟨(j 1).val, (j 1).isLt⟩

/-- What the body stores, at an entry: the sum over the contracted position of the products (the roundings to bf16
    are the identity on the extended reals, and the accumulator starts at zero). -/
theorem pay0_apply (x0 : Vec Ideal S5000x256 .f32) (x1 : Vec Ideal S256x32 .f32) (j : S5000x32.Idx) :
    k0_pay1 (F := Ideal) x0 x1 j = ∑ k : Fin 256, x0 (bl0 j k) * x1 (br0 j k) := by
  unfold k0_pay1
  refine (Ideal.matmul_constant_zero_apply D0 none _ _ j).trans ?_
  rw [← Equiv.sum_comp (ValueIdx.contrEquiv1 D0 256 rfl rfl).symm]
  refine Finset.sum_congr rfl fun k _ => ?_
  have hk := ValueIdx.contrEquiv1_symm_val D0 256 rfl rfl k
  have el : D0.lhsIdx j ((ValueIdx.contrEquiv1 D0 256 rfl rfl).symm k) = bl0 j k := funext fun a => Fin.ext (by
    match a with
    | ⟨0, _⟩ => exact lhs0_0 _ _
    | ⟨1, _⟩ => exact (lhs0_1 _ _).trans hk)
  have er : D0.rhsIdx j ((ValueIdx.contrEquiv1 D0 256 rfl rfl).symm k) = br0 j k := funext fun a => Fin.ext (by
    match a with
    | ⟨0, _⟩ => exact (rhs0_0 _ _).trans hk
    | ⟨1, _⟩ => exact rhs0_1 _ _)
  show x0 (D0.lhsIdx j ((ValueIdx.contrEquiv1 D0 256 rfl rfl).symm k)) * x1 (D0.rhsIdx j ((ValueIdx.contrEquiv1 D0 256 rfl rfl).symm k)) = _
  rw [el, er]

theorem hz : (![0, 0] : Fin 2 → Nat) = fun _ => 0 := funext fun a => by fin_cases a <;> rfl

/-- The printed index maps over the twenty points: the left operand's row block moves with the result's, the right
    operand is always its one whole block, and the result's row block is the point. -/
theorem idx_facts0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every one of the twenty row blocks is some point's. -/
theorem idx_onto0 : ∀ q : Fin 20, ∃ t : Fin cfg0.N, win0_2.index t = ![q.val, 0] :=
  (by decide +kernel : ∀ q : Fin 20, ∃ t : Fin grid0.N, win0_2.index t = ![q.val, 0])

variable (V : (c : Dev nD) → (b : Ref sig .tc) → Buf (Elt Ideal) ((c : Thread nD τ).loc b))

/-- What point `t` writes back is block `t` of the whole product of the two arrays the region finds. -/
theorem flushed0 (c : Dev nD) (t : Fin cfg0.N) :
    (dat0 V c).flushed 2 t = ((cfg0.win 2).blk t).view.read (Elt Ideal)
      (Cert.ReferenceIdeal.ReadP.val_main_v7 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x32) hz]
  obtain ⟨e0, e1, e2, e3, e4, e5⟩ := idx_facts0 t
  funext j
  show k0_pay1 (F := Ideal) (iblk0 V c 0 t) (iblk0 V c 1 t) j
    = Cert.ReferenceIdeal.ReadP.val_main_v7 (F := Ideal) (V c main_arg0) (V c main_arg2) (((cfg0.win 2).blk t).view.emb j)
  refine (pay0_apply _ _ j).trans ?_
  refine Eq.trans ?_ (Cert.ReferenceIdeal.ReadP.val_main_v7_apply _ _ _).symm
  refine Finset.sum_congr rfl fun k _ => ?_
  have h0 : iblk0 V c 0 t (bl0 j k) = V c main_arg0 (Cert.ReferenceIdeal.ReadP.lidx_main_v7 (((cfg0.win 2).blk t).view.emb j) k) := by
    show V c main_arg0 (((cfg0.win 0).blk t).view.emb (bl0 j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : iblk0 V c 1 t (br0 j k) = V c main_arg2 (Cert.ReferenceIdeal.ReadP.ridx_main_v7 (((cfg0.win 2).blk t).view.emb j) k) := by
    show V c main_arg2 (((cfg0.win 1).blk t).view.emb (br0 j k)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 32 + 1 * (j 1).val = win0_2.index t (1 : Fin 2) * 32 + 1 * (j 1).val; omega
  rw [h0, h1]

/-- An index of the result array is in point `t`'s block iff each coordinate is in the block's range on its axis. -/
theorem mem_blk0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v7).slice (win0_2.rect t)).set ↔ _
  rw [View.set_slice_whole, Rect.mem_set_unit]
  exact Iff.rfl

/-- Row `r` is in the block of the point whose row block is `r / 5000`. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- The result array after the region: the whole product of the two arrays the region finds. -/
theorem whole0 (c : Dev nD) :
    (dat0 V c).arrAt 2 cfg0.N = Cert.ReferenceIdeal.ReadP.val_main_v7 (F := Ideal) (V c main_arg0) (V c main_arg2) :=
  (dat0 V c).arrAt_eq_of_cover 2 _ (fun t _ => flushed0 V c t) cover0

end Cert.KernelIdeal.Whole

end
-- ==== Proof.Region1.lean ====
/-
  The second region as ONE function of the arrays it finds. The region adds a bias row to a [100000, 32] array and
  clamps at zero, in twenty row blocks of 5000: at grid point `t` the body loads rows 5000·t … 5000·t + 4999 of the
  array and the whole [1, 32] bias row, and stores max (a(r, j) + bias(0, j)) 0 as the same rows of the result. The
  value at an entry depends on that entry and on the bias at its column only, so each block of the result is the
  corresponding block of the whole-array function `biasRelu`; the twenty blocks tile the rows.
-/
import proofs.«123566_j33328946217826_1_alg».proof.Proof.Gen.KernelIdeal.Frame
import proofs.«123566_j33328946217826_1_alg».proof.Proof.Network
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

/-- Row 0, column `j 1` of the bias row. -/
abbrev brow1 (j : S5000x32.Idx) : S1x32.Idx := fun a => match a with
  | ⟨0, _⟩ => ⟨0, Nat.one_pos⟩
  | ⟨1, _⟩ => ⟨(j 1).val, (j 1).isLt⟩

/-- What the body stores, at an entry: the entry plus the bias at its column, clamped at zero. -/
theorem pay1_apply (x0 : Vec Ideal S5000x32 .f32) (x1 : Vec Ideal S1x32 .f32) (j : S5000x32.Idx) :
    k1_pay1 (F := Ideal) x0 x1 j = max (x0 j + x1 (brow1 j)) (Ideal.ofBits .f32 0x00000000#32) := by
  unfold k1_pay1
  simp only [shapeCast_self]
  refine (congrArg (fun z : EReal => max (x0 j + z) (Ideal.ofBits .f32 0x00000000#32))
    (broadcastTo_apply x1 _ j (brow1 j) (fun a => match a with
      | ⟨0, _⟩ => rfl
      | ⟨1, _⟩ => rfl))).trans ?_
  rfl

theorem hz1 : (![0, 0] : Fin 2 → Nat) = fun _ => 0 := funext fun a => by fin_cases a <;> rfl

/-- The printed index maps over the twenty points: the input's row block moves with the result's, the bias row is
    always its one whole block, and the result's row block is the point. -/
theorem idx_facts1 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every one of the twenty row blocks is some point's. -/
theorem idx_onto1 : ∀ q : Fin 20, ∃ t : Fin cfg1.N, win1_2.index t = ![q.val, 0] :=
  (by decide +kernel : ∀ q : Fin 20, ∃ t : Fin grid1.N, win1_2.index t = ![q.val, 0])

variable (V : (c : Dev nD) → (b : Ref sig .tc) → Buf (Elt Ideal) ((c : Thread nD τ).loc b))

/-- What point `t` writes back is block `t` of `biasRelu` of the two arrays the region finds. -/
theorem flushed1 (c : Dev nD) (t : Fin cfg1.N) :
    (dat1 V c).flushed 2 t = ((cfg1.win 2).blk t).view.read (Elt Ideal)
      (Cert.Network.biasRelu (F := Ideal) (V c main_v44) (V c main_v45)) := by
  show (cfg1.win 2).cut (grid1.coords t) ((dat1 V c).after 2 t) = _
  rw [after1_2]
  unfold out1_2
  rw [View.canon_unit_zero hz1]
  simp only [View.ld_unit_zero (S := S5000x32) hz1, View.ld_unit_zero (S := S1x32) hz1]
  obtain ⟨e0, e1, e2, e3, e4, e5⟩ := idx_facts1 t
  funext j
  show k1_pay1 (F := Ideal) (iblk1 V c 0 t) (iblk1 V c 1 t) j
    = Cert.Network.biasRelu (F := Ideal) (V c main_v44) (V c main_v45) (((cfg1.win 2).blk t).view.emb j)
  refine (pay1_apply _ _ j).trans ?_
  refine Eq.trans ?_ (Cert.Network.biasRelu_apply _ _ _).symm
  have h0 : iblk1 V c 0 t j = V c main_v44 (((cfg1.win 2).blk t).view.emb j) := by
    show V c main_v44 (((cfg1.win 0).blk t).view.emb j) = _
    refine congrArg (V c main_v44) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 32 + 1 * (j 1).val = win1_2.index t (1 : Fin 2) * 32 + 1 * (j 1).val; omega
  have h1 : iblk1 V c 1 t (brow1 j) = V c main_v45 (Cert.ReferenceIdeal.ReadP.idx_main_v46 (((cfg1.win 2).blk t).view.emb j)) := by
    show V c main_v45 (((cfg1.win 1).blk t).view.emb (brow1 j)) = _
    refine congrArg (V c main_v45) (funext fun a => Fin.ext ?_)
    match a with
    | ⟨0, _⟩ => show win1_1.index t (0 : Fin 2) * 1 + 1 * 0 = 0; omega
    | ⟨1, _⟩ => show win1_1.index t (1 : Fin 2) * 32 + 1 * (j 1).val = win1_2.index t (1 : Fin 2) * 32 + 1 * (j 1).val; omega
  rw [h0, h1]

/-- An index of the result array is in point `t`'s block iff each coordinate is in the block's range on its axis. -/
theorem mem_blk1 (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v46).slice (win1_2.rect t)).set ↔ _
  rw [View.set_slice_whole, Rect.mem_set_unit]
  exact Iff.rfl

/-- Row `r` is in the block of the point whose row block is `r / 5000`. -/
theorem cover1 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- The result array after the region: `biasRelu` of the two arrays the region finds. -/
theorem whole1 (c : Dev nD) :
    (dat1 V c).arrAt 2 cfg1.N = Cert.Network.biasRelu (F := Ideal) (V c main_v44) (V c main_v45) :=
  (dat1 V c).arrAt_eq_of_cover 2 _ (fun t _ => flushed1 V c t) cover1

end Cert.KernelIdeal.Whole

end
-- ==== Proof.Region2.lean ====
/-
  The third region as ONE function of the arrays it finds. The region multiplies a [100000, 32] array by a [32, 64]
  matrix and adds a bias row, in twenty row blocks of 5000: at grid point `t` the body loads rows 5000·t … 5000·t + 4999
  of the left operand, the whole matrix and the whole [1, 64] bias row, and stores the block's product plus the bias
  (the roundings to bf16 on the way into the product are the identity on the extended reals). An entry depends on one
  row of the left operand, one column of the matrix and the bias at that column only, so each block of the result is
  the corresponding block of the whole-array function `projBias`; the twenty blocks tile the rows.
-/
import proofs.«123566_j33328946217826_1_alg».proof.Proof.Gen.KernelIdeal.Frame
import proofs.«123566_j33328946217826_1_alg».proof.Proof.Network
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

/-- The contraction of a [5000, 32] block with the [32, 64] matrix. -/
abbrev D2 : DotDims S5000x32 S32x64 S5000x64 := dot_S5000x32_S32x64_S5000x64_1_0_0_1_n_n

theorem lhs2_0 (i : S5000x64.Idx) (q : D2.contr.Idx) : (D2.lhsIdx i q 0).val = (i 0).val := by
  unfold DotDims.lhsIdx
  rw [dif_neg (show ¬(0 : Fin S5000x32.rank) ∈ D2.lhsBatch by decide), dif_pos (show (0 : Fin S5000x32.rank) ∈ D2.lhsNonContracting by decide)]
  rfl
theorem lhs2_1 (i : S5000x64.Idx) (q : D2.contr.Idx) : (D2.lhsIdx i q 1).val = (q ⟨0, by decide⟩).val :=
  D2.lhsIdx_val_of_single rfl i q
theorem rhs2_0 (i : S5000x64.Idx) (q : D2.contr.Idx) : (D2.rhsIdx i q 0).val = (q ⟨0, by decide⟩).val :=
  D2.rhsIdx_val_of_single rfl i q
theorem rhs2_1 (i : S5000x64.Idx) (q : D2.contr.Idx) : (D2.rhsIdx i q 1).val = (i 1).val := by
  unfold DotDims.rhsIdx
  rw [dif_neg (show ¬(1 : Fin S32x64.rank) ∈ D2.rhsBatch by decide), dif_pos (show (1 : Fin S32x64.rank) ∈ D2.rhsNonContracting by decide)]
  rfl

/-- Row `j 0`, position `k` of the left block. -/
abbrev bl2 (j : S5000x64.Idx) (k : Fin 32) : S5000x32.Idx := fun a => match a with
  | ⟨0, _⟩ => ⟨(j 0).val, (j 0).isLt⟩
  | ⟨1, _⟩ => ⟨k.val, k.isLt⟩
/-- Position `k`, column `j 1` of the matrix. -/
abbrev br2 (j : S5000x64.Idx) (k : Fin 32) : S32x64.Idx := fun a => match a with
  | ⟨0, _⟩ => ⟨k.val, k.isLt⟩
  | ⟨1, _⟩ => ⟨(j 1).val, (j 1).isLt⟩
/-- Row 0, column `j 1` of the bias row. -/
abbrev brow2 (j : S5000x64.Idx) : S1x64.Idx := fun a => match a with
  | ⟨0, _⟩ => ⟨0, Nat.one_pos⟩
  | ⟨1, _⟩ => ⟨(j 1).val, (j 1).isLt⟩

/-- The block product at an entry: the sum over the contracted position of the products. -/
theorem prod2_apply (x0 : FVec Ideal S5000x32 .bf16) (x1 : FVec Ideal S32x64 .bf16) (j : S5000x64.Idx) :
    FloatOps.matmul D2 none x0 x1 (constant S5000x64 .f32 0x00000000#32) j = ∑ k : Fin 32, x0 (bl2 j k) * x1 (br2 j k) := by
  rw [Ideal.matmul_constant_zero_apply, ← Equiv.sum_comp (ValueIdx.contrEquiv1 D2 32 rfl rfl).symm]
  refine Finset.sum_congr rfl fun k _ => ?_
  have hk := ValueIdx.contrEquiv1_symm_val D2 32 rfl rfl k
  have el : D2.lhsIdx j ((ValueIdx.contrEquiv1 D2 32 rfl rfl).symm k) = bl2 j k := funext fun a => Fin.ext (by
    match a with
    | ⟨0, _⟩ => exact lhs2_0 _ _
    | ⟨1, _⟩ => exact (lhs2_1 _ _).trans hk)
  have er : D2.rhsIdx j ((ValueIdx.contrEquiv1 D2 32 rfl rfl).symm k) = br2 j k := funext fun a => Fin.ext (by
    match a with
    | ⟨0, _⟩ => exact (rhs2_0 _ _).trans hk
    | ⟨1, _⟩ => exact rhs2_1 _ _)
  rw [el, er]

/-- What the body stores, at an entry: the product's entry plus the bias at its column. -/
theorem pay2_apply (x0 : Vec Ideal S5000x32 .f32) (x1 : Vec Ideal S32x64 .f32) (x2 : Vec Ideal S1x64 .f32) (j : S5000x64.Idx) :
    k2_pay1 (F := Ideal) x0 x1 x2 j = (∑ k : Fin 32, x0 (bl2 j k) * x1 (br2 j k)) + x2 (brow2 j) := by
  unfold k2_pay1
  simp only [shapeCast_self]
  refine (congrArg₂ (fun u v : EReal => u + v) (prod2_apply _ _ j)
    (broadcastTo_apply x2 _ j (brow2 j) (fun a => match a with
      | ⟨0, _⟩ => rfl
      | ⟨1, _⟩ => rfl))).trans ?_
  rfl

theorem hz2 : (![0, 0] : Fin 2 → Nat) = fun _ => 0 := funext fun a => by fin_cases a <;> rfl

/-- The printed index maps over the twenty points: the left operand's row block moves with the result's, the matrix and
    the bias row are always their one whole block, and the result's row block is the point. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every one of the twenty row blocks is some point's. -/
theorem idx_onto2 : ∀ q : Fin 20, ∃ t : Fin cfg2.N, win2_3.index t = ![q.val, 0] :=
  (by decide +kernel : ∀ q : Fin 20, ∃ t : Fin grid2.N, win2_3.index t = ![q.val, 0])

variable (V : (c : Dev nD) → (b : Ref sig .tc) → Buf (Elt Ideal) ((c : Thread nD τ).loc b))

/-- What point `t` writes back is block `t` of `projBias` of the three arrays the region finds. -/
theorem flushed2 (c : Dev nD) (t : Fin cfg2.N) :
    (dat2 V c).flushed 3 t = ((cfg2.win 3).blk t).view.read (Elt Ideal)
      (Cert.Network.projBias (F := Ideal) (V c main_v83) (V c main_arg4) (V c main_v84)) := by
  show (cfg2.win 3).cut (grid2.coords t) ((dat2 V c).after 3 t) = _
  rw [after2_3]
  unfold out2_3
  rw [View.canon_unit_zero hz2]
  simp only [View.ld_unit_zero (S := S5000x32) hz2, View.ld_unit_zero (S := S32x64) hz2, View.ld_unit_zero (S := S1x64) hz2]
  obtain ⟨e0, e1, e2, e3, e4, e5, e6, e7⟩ := idx_facts2 t
  funext j
  show k2_pay1 (F := Ideal) (iblk2 V c 0 t) (iblk2 V c 1 t) (iblk2 V c 2 t) j
    = Cert.Network.projBias (F := Ideal) (V c main_v83) (V c main_arg4) (V c main_v84) (((cfg2.win 3).blk t).view.emb j)
  refine (pay2_apply _ _ _ j).trans ?_
  refine Eq.trans ?_ (Cert.Network.projBias_apply _ _ _ _).symm
  have h2 : iblk2 V c 2 t (brow2 j) = V c main_v84 (Cert.ReferenceIdeal.ReadP.idx_main_v88 (((cfg2.win 3).blk t).view.emb j)) := by
    show V c main_v84 (((cfg2.win 2).blk t).view.emb (brow2 j)) = _
    refine congrArg (V c main_v84) (funext fun a => Fin.ext ?_)
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  rw [h2]
  refine congrArg (· + V c main_v84 (Cert.ReferenceIdeal.ReadP.idx_main_v88 (((cfg2.win 3).blk t).view.emb j))) ?_
  refine Finset.sum_congr rfl fun k _ => ?_
  have h0 : iblk2 V c 0 t (bl2 j k) = V c main_v83 (Cert.ReferenceIdeal.ReadP.lidx_main_v86 (((cfg2.win 3).blk t).view.emb j) k) := by
    show V c main_v83 (((cfg2.win 0).blk t).view.emb (bl2 j k)) = _
    refine congrArg (V c main_v83) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 32 + 1 * k.val = k.val; omega
  have h1 : iblk2 V c 1 t (br2 j k) = V c main_arg4 (Cert.ReferenceIdeal.ReadP.ridx_main_v86 (((cfg2.win 3).blk t).view.emb j) k) := by
    show V c main_arg4 (((cfg2.win 1).blk t).view.emb (br2 j k)) = _
    refine congrArg (V c main_arg4) (funext fun a => Fin.ext ?_)
    match a with
    | ⟨0, _⟩ => show win2_1.index t (0 : Fin 2) * 32 + 1 * k.val = k.val; omega
    | ⟨1, _⟩ => show win2_1.index t (1 : Fin 2) * 64 + 1 * (j 1).val = win2_3.index t (1 : Fin 2) * 64 + 1 * (j 1).val; omega
  rw [h0, h1]

/-- An index of the result array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v85).slice (win2_3.rect t)).set ↔ _
  rw [View.set_slice_whole, Rect.mem_set_unit]
  exact Iff.rfl

/-- Row `r` is in the block of the point whose row block is `r / 5000`. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The result array after the region: `projBias` of the three arrays the region finds. -/
theorem whole2 (c : Dev nD) :
    (dat2 V c).arrAt 3 cfg2.N = Cert.Network.projBias (F := Ideal) (V c main_v83) (V c main_arg4) (V c main_v84) :=
  (dat2 V c).arrAt_eq_of_cover 3 _ (fun t _ => flushed2 V c t) cover2

end Cert.KernelIdeal.Whole

end
-- ==== Proof.KernelValue.lean ====
/-
  The idealized kernel program's result as a function of its arguments. Reading the last boundary backwards: the third
  region leaves `projBias` of what it finds; it finds one propagate step of the second region's result, the fifth
  argument, and the last bias as a row; the second region leaves `biasRelu` of one propagate step of the first region's
  result and the first bias as a row; the first region leaves the product of the first and third arguments. A bias
  vector reshaped to a row and the same vector broadcast to a row are one array. So the result is the reference
  program's last stage of the six arguments.
-/
import proofs.«123566_j33328946217826_1_alg».proof.Proof.KernelRun
import proofs.«123566_j33328946217826_1_alg».proof.Proof.KernelHost
import proofs.«123566_j33328946217826_1_alg».proof.Proof.Region0
import proofs.«123566_j33328946217826_1_alg».proof.Proof.Region1
import proofs.«123566_j33328946217826_1_alg».proof.Proof.Region2

set_option maxRecDepth 16384

noncomputable section

namespace Cert.KernelIdeal.Whole

open Cert.KernelIdeal Cert.KernelIdeal.Gen Idealize.ShloMosaic Idealize.ShloMosaic.TcCoe Idealize.SL.Sem

/-- A 32-vector reshaped to a [1, 32] row is the vector broadcast along a new leading axis. -/
theorem biasRow32 {F : FTy → Type} [FloatOps F] (x : (⟨S32, .f32⟩ : BufTy).Contents (Elt F)) :
    shapeCast S1x32 x Cert.KernelIdeal.Gen.shapeCasts_S32_S1x32 = Cert.ReferenceIdeal.ReadP.val_main_v45 (F := F) x := by
  funext i
  rw [Cert.ReferenceIdeal.ReadP.val_main_v45_apply]
  refine shapeCast_apply x _ i _ ?_
  rw [Shape.rowMajor_val_two, Shape.rowMajor_val_one]
  show (i 1).val = (i 0).val * 32 + (i 1).val
  have h0 : (i 0).val < 1 := (i 0).isLt
  omega

/-- A 64-vector reshaped to a [1, 64] row is the vector broadcast along a new leading axis. -/
theorem biasRow64 {F : FTy → Type} [FloatOps F] (x : (⟨S64, .f32⟩ : BufTy).Contents (Elt F)) :
    shapeCast S1x64 x Cert.KernelIdeal.Gen.shapeCasts_S64_S1x64 = Cert.ReferenceIdeal.ReadP.val_main_v87 (F := F) x := by
  funext i
  rw [Cert.ReferenceIdeal.ReadP.val_main_v87_apply]
  refine shapeCast_apply x _ i _ ?_
  rw [Shape.rowMajor_val_two, Shape.rowMajor_val_one]
  show (i 1).val = (i 0).val * 64 + (i 1).val
  have h0 : (i 0).val < 1 := (i 0).isLt
  omega

variable (m : (ℓ : Loc nD τ sig) → Buf (Elt Ideal) ℓ) (ρ : Dev nD → PrngReg)

/-- After the first region its result array is the product of the first and third arguments. -/
theorem W2_prod (c : Dev nD) :
    W2 m ρ c (Proc.devRef .tc main_v7)
      = Cert.ReferenceIdeal.ReadP.val_main_v7 (F := Ideal) (m ((c : Thread nD τ).loc main_arg0)) (m ((c : Thread nD τ).loc main_arg2)) := by
  refine (W2_arr m ρ c 2).trans ((whole0 (V1 m ρ) c).trans ?_)
  show Cert.ReferenceIdeal.ReadP.val_main_v7 (F := Ideal) (W1 m ρ c (Proc.devRef .tc main_arg0)) (W1 m ρ c (Proc.devRef .tc main_arg2)) = _
  rw [W1_arg0 m ρ c, W1_arg2 m ρ c]

/-- After the second region its result array is the first layer's output. -/
theorem W6_layer (c : Dev nD) :
    W6 m ρ c (Proc.devRef .tc main_v46)
      = Cert.ReferenceIdeal.ReadP.val_main_v48 (F := Ideal) (m ((c : Thread nD τ).loc main_arg0)) (m ((c : Thread nD τ).loc main_arg1))
          (m ((c : Thread nD τ).loc main_arg2)) (m ((c : Thread nD τ).loc main_arg3)) := by
  refine (W6_arr m ρ c 2).trans ((whole1 (V5 m ρ) c).trans ?_)
  show Cert.Network.biasRelu (F := Ideal) (W5 m ρ c (Proc.devRef .tc main_v44)) (W5 m ρ c (Proc.devRef .tc main_v45)) = _
  rw [W5_agg m ρ c, W5_bias m ρ c, W2_prod m ρ c, biasRow32, Cert.Network.stage_v48, Cert.Network.stage_v44]

/-- At the program's last boundary the result array is the reference's last stage of the six arguments. -/
theorem W10_result (c : Dev nD) :
    W10 m ρ c (Proc.devRef .tc main_v85)
      = Cert.ReferenceIdeal.ReadP.val_main_v89 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (W10_arr m ρ c 3).trans ((whole2 (V9 m ρ) c).trans ?_)
  show Cert.Network.projBias (F := Ideal) (W9 m ρ c (Proc.devRef .tc main_v83)) (W9 m ρ c (Proc.devRef .tc main_arg4))
    (W9 m ρ c (Proc.devRef .tc main_v84)) = _
  rw [W9_agg m ρ c, W9_arg4 m ρ c, W9_bias m ρ c, W6_layer m ρ c, biasRow64, Cert.Network.stage_v89, Cert.Network.stage_v85]

/-- Every weakly fair execution of the idealized kernel program terminates, nothing faulting, with its result array at the
    reference's last stage of the six arguments and the arguments as launched. -/
theorem run : θ_run defs (onTc (τ := τ) (main (F := Ideal))) ⟨m, fun _ => 0, ρ⟩ (fun r => ∀ c : Dev nD,
      r.2.mem ((c.tc : Thread nD τ).loc main_v85)
        = Cert.ReferenceIdeal.ReadP.val_main_v89 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W10_result m ρ c), (h c).2⟩) (run_result m ρ)

end Cert.KernelIdeal.Whole

end
-- ==== Proof.lean ====
/-
  The certificate of a two-layer graph network over 100000 nodes and 3.2 million edges: the kernel program against its
  jnp reference, equal as functions to the extended reals.

  Both programs compute  x ↦ (P (relu (P (x · W1) + b1)) · W2) + b2,  where `P` is the propagate step over the edge list
  extended by self-loops: row `i` of `P h` is the sum over the edges `e` into `i` of deg(row e)^(-1/2) · deg(col e)^(-1/2) ·
  h(row e). The reference spells every piece as a host operation. The kernel program spells `P` with the same host
  operations and the three dense pieces as three regions, each over twenty blocks of 5000 rows: x · W1, then
  max (· + b1) 0, then (· · W2) + b2, the products taking their operands rounded to bf16.

  Why they agree on the extended reals. A rounding is the identity there, so each product block is an exact block
  product; an entry of a matrix product (or of a row-wise bias and clamp) depends on one row of the left operand only, so
  the blocks of each region's result are the blocks of ONE whole-array function, and the twenty blocks tile the rows:
  each region computes the reference's stage (Region0, Region1, Region2; the bias reshaped to a row is the bias broadcast
  to a row). Between the regions both programs apply the same propagate step to what they hold, and it is never opened
  (Network, KernelHost). No algebraic law beyond the commutative sum inside the library's reading of a product is used,
  so nothing needs the inputs finite. The kernel program's run with its result named is KernelRun and KernelValue; the
  reference's is RefRunP and RefValue.

  The three frames: the two kernel programs' are the generated ones, the reference's is its run with the result dropped.
  The idealization rewrote nothing, so there is nothing to preserve.
-/
import proofs.«123566_j33328946217826_1_alg».proof.Defs
import proofs.«123566_j33328946217826_1_alg».proof.Proof.Gen.Kernel
import proofs.«123566_j33328946217826_1_alg».proof.Proof.Gen.Kernel.Skeleton
import proofs.«123566_j33328946217826_1_alg».proof.Proof.Gen.Kernel.Launch
import proofs.«123566_j33328946217826_1_alg».proof.Proof.Gen.Kernel.Points
import proofs.«123566_j33328946217826_1_alg».proof.Proof.Gen.Kernel.Frame
import proofs.«123566_j33328946217826_1_alg».proof.Proof.Gen.KernelIdeal
import proofs.«123566_j33328946217826_1_alg».proof.Proof.Gen.KernelIdeal.Skeleton
import proofs.«123566_j33328946217826_1_alg».proof.Proof.Gen.KernelIdeal.Launch
import proofs.«123566_j33328946217826_1_alg».proof.Proof.Gen.KernelIdeal.Points
import proofs.«123566_j33328946217826_1_alg».proof.Proof.Gen.KernelIdeal.Frame
import proofs.«123566_j33328946217826_1_alg».proof.Proof.Gen.ReferenceIdeal
import proofs.«123566_j33328946217826_1_alg».proof.Proof.Gen.Pre_finite_inputs
import proofs.«123566_j33328946217826_1_alg».proof.Proof.RefRunP
import proofs.«123566_j33328946217826_1_alg».proof.Proof.RefReadP
import proofs.«123566_j33328946217826_1_alg».proof.Proof.RefValue
import proofs.«123566_j33328946217826_1_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : @Cert.frame_Kernel Cert.Kernel.Gen.facts Cert.Pre_finite_inputs.Gen.facts :=
  fun m ρ _ => Cert.Kernel.Gen.frame m ρ

/-- The idealized kernel program runs and keeps its arguments. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Whole.run (F := Ideal) m ρ)

/-- From memories that agree on the six arguments both programs end with the reference's last stage of those arguments
    in their result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
